-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x256 : Shape := ⟨2, ![256, 256]⟩
abbrev S256x1 : Shape := ⟨2, ![256, 1]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S64x1024x256 .f32) (main_arg1 : FVec F S256x256 .f32) (main_arg2 : FVec F S256x256 .f32) (main_arg3 : FVec F S256x1 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S64x1024x256 : Shape := ⟨3, ![64, 1024, 256]⟩
abbrev S256x256 : Shape := ⟨2, ![256, 256]⟩
abbrev S256x1 : Shape := ⟨2, ![256, 1]⟩
abbrev S64x1x256 : Shape := ⟨3, ![64, 1, 256]⟩
abbrev S1x1024x256 : Shape := ⟨3, ![1, 1024, 256]⟩
abbrev S1x1x256 : Shape := ⟨3, ![1, 1, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S256 : Shape := ⟨1, ![256]⟩
abbrev S1x256 : Shape := ⟨2, ![1, 256]⟩
abbrev S64x256 : Shape := ⟨2, ![64, 256]⟩

abbrev nBuf : Space → Nat
  | .hbm => 6
  | .vmem => 7
  | .smem => 0
  | _ => 0

abbrev bufTy : (tb : Table) → Fin (tcTables nBuf tb) → BufTy
  | .hbm, ⟨0, _⟩ => ⟨S64x1024x256, .f32⟩
  | .hbm, ⟨1, _⟩ => ⟨S256x256, .f32⟩
  | .hbm, ⟨2, _⟩ => ⟨S256x256, .f32⟩
  | .hbm, ⟨3, _⟩ => ⟨S256x1, .f32⟩
  | .hbm, ⟨4, _⟩ => ⟨S64x1x256, .f32⟩
  | .hbm, ⟨5, _⟩ => ⟨S64x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256x256, .f32⟩
  | .local _ .vmem, ⟨4, _⟩ => ⟨S256x1, .f32⟩
  | .local _ .vmem, ⟨5, _⟩ => ⟨S1x1x256, .f32⟩
  | .local _ .vmem, ⟨6, _⟩ => ⟨S1x1x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  reduces_S1024x1024_S1024 : S1024x1024.Reduces [1] S1024
  shapeCasts_S1024_S1024x1 : S1024.ShapeCasts S1024x1
  broadcasts_S1024x1_S1024x1024 : S1024x1.Broadcasts S1024x1024
  reduces_S1024x1_S1 : S1024x1.Reduces [0] S1
  shapeCasts_S1_S1x1 : S1.ShapeCasts S1x1
  broadcasts_S1x1_S1024x1 : S1x1.Broadcasts S1024x1
  broadcasts_S1024x1_S1024x256 : S1024x1.Broadcasts S1024x256
  reduces_S1024x256_S256 : S1024x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S64x1x256_S64x256 : S64x1x256.ShapeCasts S64x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S64x1x256.size a
  hwx0_4 : ∀ i : grid0.Coords, EltTy.bits .f32 = 32 ∨ (Rect.block (s := S64x1x256) S1x1x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x256 : Shape := ⟨2, ![256, 256]⟩
abbrev S256x1 : Shape := ⟨2, ![256, 1]⟩
abbrev S_ : Shape := ⟨0, ![]⟩
abbrev S64x1024x1024 : Shape := ⟨3, ![64, 1024, 1024]⟩
abbrev S64x1024 : Shape := ⟨2, ![64, 1024]⟩
abbrev S64x1024x1 : Shape := ⟨3, ![64, 1024, 1]⟩
abbrev S64x1 : Shape := ⟨2, ![64, 1]⟩
abbrev S64x1x1 : Shape := ⟨3, ![64, 1, 1]⟩
abbrev S64x256 : Shape := ⟨2, ![64, 256]⟩

abbrev nBuf : Space → Nat
  | .hbm => 61
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S256x256, .f32⟩
  | .hbm, ⟨2, _⟩ => ⟨S256x256, .f32⟩
  | .hbm, ⟨3, _⟩ => ⟨S256x1, .f32⟩
  | .hbm, ⟨4, _⟩ => ⟨S64x1024x256, .f32⟩
  | .hbm, ⟨5, _⟩ => ⟨S64x1024x256, .f32⟩
  | .hbm, ⟨6, _⟩ => ⟨S64x1024x256, .f32⟩
  | .hbm, ⟨7, _⟩ => ⟨S_, .f32⟩
  | .hbm, ⟨8, _⟩ => ⟨S64x1024x256, .f32⟩
  | .hbm, ⟨9, _⟩ => ⟨S64x1024x256, .f32⟩
  | .hbm, ⟨10, _⟩ => ⟨S_, .f32⟩
  | .hbm, ⟨11, _⟩ => ⟨S64x1024x256, .f32⟩
  | .hbm, ⟨12, _⟩ => ⟨S64x1024x256, .f32⟩
  | .hbm, ⟨13, _⟩ => ⟨S64x1024x256, .f32⟩
  | .hbm, ⟨14, _⟩ => ⟨S64x1024x256, .f32⟩
  | .hbm, ⟨15, _⟩ => ⟨S64x1024x256, .f32⟩
  | .hbm, ⟨16, _⟩ => ⟨S_, .f32⟩
  | .hbm, ⟨17, _⟩ => ⟨S64x1024x256, .f32⟩
  | .hbm, ⟨18, _⟩ => ⟨S64x1024x256, .f32⟩
  | .hbm, ⟨19, _⟩ => ⟨S_, .f32⟩
  | .hbm, ⟨20, _⟩ => ⟨S64x1024x256, .f32⟩
  | .hbm, ⟨21, _⟩ => ⟨S64x1024x256, .f32⟩
  | .hbm, ⟨22, _⟩ => ⟨S_, .f32⟩
  | .hbm, ⟨23, _⟩ => ⟨S_, .f32⟩
  | .hbm, ⟨24, _⟩ => ⟨S64x1024x1024, .f32⟩
  | .hbm, ⟨25, _⟩ => ⟨S64x1024x1024, .f32⟩
  | .hbm, ⟨26, _⟩ => ⟨S64x1024x1024, .f32⟩
  | .hbm, ⟨27, _⟩ => ⟨S_, .f32⟩
  | .hbm, ⟨28, _⟩ => ⟨S64x1024, .f32⟩
  | .hbm, ⟨29, _⟩ => ⟨S_, .f32⟩
  | .hbm, ⟨30, _⟩ => ⟨S64x1024, .f32⟩
  | .hbm, ⟨31, _⟩ => ⟨S64x1024, .f32⟩
  | .hbm, ⟨32, _⟩ => ⟨S64x1024x1, .f32⟩
  | .hbm, ⟨33, _⟩ => ⟨S64x1024x1024, .f32⟩
  | .hbm, ⟨34, _⟩ => ⟨S64x1024x1024, .f32⟩
  | .hbm, ⟨35, _⟩ => ⟨S64x1024x1024, .f32⟩
  | .hbm, ⟨36, _⟩ => ⟨S_, .f32⟩
  | .hbm, ⟨37, _⟩ => ⟨S64x1024, .f32⟩
  | .hbm, ⟨38, _⟩ => ⟨S64x1024x1, .f32⟩
  | .hbm, ⟨39, _⟩ => ⟨S64x1024x1024, .f32⟩
  | .hbm, ⟨40, _⟩ => ⟨S64x1024x1024, .f32⟩
  | .hbm, ⟨41, _⟩ => ⟨S64x1024x256, .f32⟩
  | .hbm, ⟨42, _⟩ => ⟨S64x1024x1, .f32⟩
  | .hbm, ⟨43, _⟩ => ⟨S_, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x1x1, .f32⟩
  | .hbm, ⟨49, _⟩ => ⟨S64x1024x1, .f32⟩
  | .hbm, ⟨50, _⟩ => ⟨S64x1024x1, .f32⟩
  | .hbm, ⟨51, _⟩ => ⟨S64x1024x1, .f32⟩
  | .hbm, ⟨52, _⟩ => ⟨S_, .f32⟩
  | .hbm, ⟨53, _⟩ => ⟨S64x1, .f32⟩
  | .hbm, ⟨54, _⟩ => ⟨S64x1x1, .f32⟩
  | .hbm, ⟨55, _⟩ => ⟨S64x1024x1, .f32⟩
  | .hbm, ⟨56, _⟩ => ⟨S64x1024x1, .f32⟩
  | .hbm, ⟨57, _⟩ => ⟨S64x1024x256, .f32⟩
  | .hbm, ⟨58, _⟩ => ⟨S64x1024x256, .f32⟩
  | .hbm, ⟨59, _⟩ => ⟨S_, .f32⟩
  | .hbm, ⟨60, _⟩ => ⟨S64x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S_S64x1024x256 : S_.BroadcastsInDim S64x1024x256 (![] : Fin 0 → Fin S64x1024x256.rank)
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  reducesTo_S64x1024x1_S64x1_d1 : S64x1024x1.ReducesTo [1] S64x1
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  bcast_S64x1024x1_S64x1024x256_0_1_2 : S64x1024x1.BroadcastsInDim S64x1024x256 (![0, 1, 2] : Fin 3 → Fin S64x1024x256.rank)
  reducesTo_S64x1024x256_S64x256_d1 : S64x1024x256.ReducesTo [1] S64x256
  dot_S64x1024x256_S256x256_S64x1024x256_2_0_01_1_n_n_wf : DotDims.WF S64x1024x256 S256x256 S64x1024x256 [2] [0] [0, 1] [1] [] []
  dot_S64x1024x256_S64x1024x256_S64x1024x1024_2_2_1_1_0_0_wf : DotDims.WF S64x1024x256 S64x1024x256 S64x1024x1024 [2] [2] [1] [1] [0] [0]
  dot_S64x1024x1024_S64x1024x256_S64x1024x256_2_1_1_2_0_0_wf : DotDims.WF S64x1024x1024 S64x1024x256 S64x1024x256 [2] [1] [1] [2] [0] [0]
  dot_S64x1024x256_S256x1_S64x1024x1_2_0_01_1_n_n_wf : DotDims.WF S64x1024x256 S256x1 S64x1024x1 [2] [0] [0, 1] [1] [] []

variable [Facts₀]

def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf
def dot_S64x1024x1024_S64x1024x256_S64x1024x256_2_1_1_2_0_0 : DotDims S64x1024x1024 S64x1024x256 S64x1024x256 where
  lhsContracting := [2]
  rhsContracting := [1]
  lhsNonContracting := [1]
  rhsNonContracting := [2]
  lhsBatch := [0]
  rhsBatch := [0]
  wf := dot_S64x1024x1024_S64x1024x256_S64x1024x256_2_1_1_2_0_0_wf
def dot_S64x1024x256_S256x1_S64x1024x1_2_0_01_1_n_n : DotDims S64x1024x256 S256x1 S64x1024x1 where
  lhsContracting := [2]
  rhsContracting := [0]
  lhsNonContracting := [0, 1]
  rhsNonContracting := [1]
  lhsBatch := []
  rhsBatch := []
  wf := dot_S64x1024x256_S256x1_S64x1024x1_2_0_01_1_n_n_wf

class Facts : Prop extends Facts₀ where

variable [Facts]
-- ==== Proof.KernelDots.lean ====
/-
  The kernel's four matrix products into a zero accumulator, read at an entry over the extended reals: entry `(n, p)` is
  the sum over the contracted coordinate `k` of the left operand at `(n, k)` times the right operand at `(k, p)` — or at
  `(p, k)` for the product that contracts both operands on their last axis (a product with the transpose).
-/
import proofs.«167748_j395136991510_2_alg».proof.Proof.Gen.KernelIdeal
import Idealize.ShloMosaic.PureOps.Ideal.Laws
import Idealize.ShloMosaic.Lib.ValueIdx

noncomputable section

open scoped BigOperators

namespace Cert.KernelIdeal.Dots

open Idealize.ShloMosaic Idealize.ShloMosaic.ValueIdx Cert.KernelIdeal Cert.KernelIdeal.Facts₀

theorem proj_apply_l (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem proj_apply_r (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- Tokens `[1024, 256]` times a weight matrix `[256, 256]`. -/
theorem proj_apply {φ₁ φ₂ : FTy} (l : FVec Ideal S1024x256 φ₁) (r : FVec Ideal S256x256 φ₂) (n : Fin 1024) (p : Fin 256) :
    matmul dot_S1024x256_S256x256_S1024x256_1_0_0_1_n_n none l r (constant S1024x256 .f32 0x00000000#32) (ix2 n p)
      = ∑ k : Fin 256, l (ix2 n k) * r (ix2 k p) := by
  show FloatOps.matmul _ _ _ _ _ _ = _
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 n p) ((contrEquiv1 dot_S1024x256_S256x256_S1024x256_1_0_0_1_n_n 256 rfl rfl).symm k) = ix2 n k := funext fun a => Fin.ext (by
    match a with
    | ⟨0, _⟩ => exact proj_apply_l _ _
    | ⟨1, _⟩ => exact (dot_S1024x256_S256x256_S1024x256_1_0_0_1_n_n.lhsIdx_val_of_single rfl (ix2 n p) _).trans hk)
  have er : dot_S1024x256_S256x256_S1024x256_1_0_0_1_n_n.rhsIdx (ix2 n p) ((contrEquiv1 dot_S1024x256_S256x256_S1024x256_1_0_0_1_n_n 256 rfl rfl).symm k) = ix2 k p := funext fun a => Fin.ext (by
    match a with
    | ⟨0, _⟩ => exact (dot_S1024x256_S256x256_S1024x256_1_0_0_1_n_n.rhsIdx_val_of_single rfl (ix2 n p) _).trans hk
    | ⟨1, _⟩ => exact proj_apply_r _ _)
  rw [el, er]

theorem qkT_apply_l (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem qkT_apply_r (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- Queries `[1024, 256]` times the transpose of the keys `[1024, 256]`: both contracted on their last axis. -/
theorem qkT_apply {φ₁ φ₂ : FTy} (l : FVec Ideal S1024x256 φ₁) (r : FVec Ideal S1024x256 φ₂) (n : Fin 1024) (p : Fin 1024) :
    matmul dot_S1024x256_S1024x256_S1024x1024_1_1_0_0_n_n none l r (constant S1024x1024 .f32 0x00000000#32) (ix2 n p)
      = ∑ k : Fin 256, l (ix2 n k) * r (ix2 p k) := by
  show FloatOps.matmul _ _ _ _ _ _ = _
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 n p) ((contrEquiv1 dot_S1024x256_S1024x256_S1024x1024_1_1_0_0_n_n 256 rfl rfl).symm k) = ix2 n k := funext fun a => Fin.ext (by
    match a with
    | ⟨0, _⟩ => exact qkT_apply_l _ _
    | ⟨1, _⟩ => exact (dot_S1024x256_S1024x256_S1024x1024_1_1_0_0_n_n.lhsIdx_val_of_single rfl (ix2 n p) _).trans hk)
  have er : dot_S1024x256_S1024x256_S1024x1024_1_1_0_0_n_n.rhsIdx (ix2 n p) ((contrEquiv1 dot_S1024x256_S1024x256_S1024x1024_1_1_0_0_n_n 256 rfl rfl).symm k) = ix2 p k := funext fun a => Fin.ext (by
    match a with
    | ⟨0, _⟩ => exact qkT_apply_r _ _
    | ⟨1, _⟩ => exact (dot_S1024x256_S1024x256_S1024x1024_1_1_0_0_n_n.rhsIdx_val_of_single rfl (ix2 n p) _).trans hk)
  rw [el, er]

theorem attend_apply_l (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem attend_apply_r (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
/-- Attention weights `[1024, 1024]` times the tokens `[1024, 256]`. -/
theorem attend_apply {φ₁ φ₂ : FTy} (l : FVec Ideal S1024x1024 φ₁) (r : FVec Ideal S1024x256 φ₂) (n : Fin 1024) (p : Fin 256) :
    matmul dot_S1024x1024_S1024x256_S1024x256_1_0_0_1_n_n none l r (constant S1024x256 .f32 0x00000000#32) (ix2 n p)
      = ∑ k : Fin 1024, l (ix2 n k) * r (ix2 k p) := by
  show FloatOps.matmul _ _ _ _ _ _ = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 n p) ((contrEquiv1 dot_S1024x1024_S1024x256_S1024x256_1_0_0_1_n_n 1024 rfl rfl).symm k) = ix2 n k := funext fun a => Fin.ext (by
    match a with
    | ⟨0, _⟩ => exact attend_apply_l _ _
    | ⟨1, _⟩ => exact (dot_S1024x1024_S1024x256_S1024x256_1_0_0_1_n_n.lhsIdx_val_of_single rfl (ix2 n p) _).trans hk)
  have er : dot_S1024x1024_S1024x256_S1024x256_1_0_0_1_n_n.rhsIdx (ix2 n p) ((contrEquiv1 dot_S1024x1024_S1024x256_S1024x256_1_0_0_1_n_n 1024 rfl rfl).symm k) = ix2 k p := funext fun a => Fin.ext (by
    match a with
    | ⟨0, _⟩ => exact (dot_S1024x1024_S1024x256_S1024x256_1_0_0_1_n_n.rhsIdx_val_of_single rfl (ix2 n p) _).trans hk
    | ⟨1, _⟩ => exact attend_apply_r _ _)
  rw [el, er]

theorem score_apply_l (i : S1024x1.Idx) (q : dot_S1024x256_S256x1_S1024x1_1_0_0_1_n_n.contr.Idx) : (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
theorem score_apply_r (i : S1024x1.Idx) (q : dot_S1024x256_S256x1_S1024x1_1_0_0_1_n_n.contr.Idx) : (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl
/-- Contexts `[1024, 256]` times the one-column weight `[256, 1]`. -/
theorem score_apply {φ₁ φ₂ : FTy} (l : FVec Ideal S1024x256 φ₁) (r : FVec Ideal S256x1 φ₂) (n : Fin 1024) (p : Fin 1) :
    matmul dot_S1024x256_S256x1_S1024x1_1_0_0_1_n_n none l r (constant S1024x1 .f32 0x00000000#32) (ix2 n p)
      = ∑ k : Fin 256, l (ix2 n k) * r (ix2 k p) := by
  show FloatOps.matmul _ _ _ _ _ _ = _
  rw [Ideal.matmul_constant_zero_apply, ← Equiv.sum_comp (contrEquiv1 dot_S1024x256_S256x1_S1024x1_1_0_0_1_n_n 256 rfl rfl).symm]
  refine Finset.sum_congr rfl fun k _ => ?_
  have hk := contrEquiv1_symm_val dot_S1024x256_S256x1_S1024x1_1_0_0_1_n_n 256 rfl rfl k
  have el : dot_S1024x256_S256x1_S1024x1_1_0_0_1_n_n.lhsIdx (ix2 n p) ((contrEquiv1 dot_S1024x256_S256x1_S1024x1_1_0_0_1_n_n 256 rfl rfl).symm k) = ix2 n k := funext fun a => Fin.ext (by
    match a with
    | ⟨0, _⟩ => exact score_apply_l _ _
    | ⟨1, _⟩ => exact (dot_S1024x256_S256x1_S1024x1_1_0_0_1_n_n.lhsIdx_val_of_single rfl (ix2 n p) _).trans hk)
  have er : dot_S1024x256_S256x1_S1024x1_1_0_0_1_n_n.rhsIdx (ix2 n p) ((contrEquiv1 dot_S1024x256_S256x1_S1024x1_1_0_0_1_n_n 256 rfl rfl).symm k) = ix2 k p := funext fun a => Fin.ext (by
    match a with
    | ⟨0, _⟩ => exact (dot_S1024x256_S256x1_S1024x1_1_0_0_1_n_n.rhsIdx_val_of_single rfl (ix2 n p) _).trans hk
    | ⟨1, _⟩ => exact score_apply_r _ _)
  rw [el, er]

end Cert.KernelIdeal.Dots

end
-- ==== Proof.Layout.lean ====
/-
  Rank-2 arrays read at an entry over the extended reals: a maximum or a sum taken along the rows or down the columns
  is the fold, or the sum, over that axis's coordinate; a vector `[a]` written as a column `[a, 1]` keeps its entries.
  Generic in the extents.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.AttnPool.Layout

open Idealize.ShloMosaic Idealize.ShloMosaic.ValueIdx

variable {a b : ℕ}

/-- Row `n` with the column coordinate `k` put back is `(n, k)`. -/
theorem lift_row (h : (⟨2, ![a, b]⟩ : Shape).Reduces [1] ⟨1, ![a]⟩) (n : Fin a) (k : Fin ((⟨2, ![a, b]⟩ : Shape).size 1)) :
    h.lift (ix1 n) k = ix2 n (⟨k.val, k.isLt⟩ : Fin b) := by
  funext c; apply Fin.ext
  fin_cases c <;> rfl

/-- Column `d` with the row coordinate `k` put back is `(k, d)`. -/
theorem lift_col (h : (⟨2, ![a, b]⟩ : Shape).Reduces [0] ⟨1, ![b]⟩) (d : Fin b) (k : Fin ((⟨2, ![a, b]⟩ : Shape).size 0)) :
    h.lift (ix1 d) k = ix2 (⟨k.val, k.isLt⟩ : Fin a) d := by
  funext c; apply Fin.ext
  fin_cases c <;> rfl

/-- The maximum along row `n`, folded from the accumulator's word. -/
theorem rowMax_apply (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (n : Fin a) :
    multiReduction .maximumf [1] ⟨1, ![a]⟩ src acc h hφ hacc (ix1 n)
      = (Finset.univ : Finset (Fin b)).fold max (Ideal.ofBits .f32 acc) (fun m => src (ix2 n m)) := by
  rw [Ideal.multiReduction_maximumf_single]
  exact congrArg (fun f => Finset.fold max (Ideal.ofBits .f32 acc) f Finset.univ)
    (funext fun k => congrArg src (lift_row h n k))

/-- The sum along row `n`. -/
theorem rowSum_apply (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (n : Fin a) :
    multiReduction .add [1] ⟨1, ![a]⟩ src acc h hφ hacc (ix1 n) = ∑ m : Fin b, src (ix2 n m) := by
  rw [Ideal.multiReduction_add_single]
  exact Finset.sum_congr rfl fun k _ => congrArg src (lift_row h n k)

/-- The maximum down column `d`, folded from the accumulator's word. -/
theorem colMax_apply (src : FVec Ideal ⟨2, ![a, b]⟩ .f32) (acc : BitVec 32) (h : (⟨2, ![a, b]⟩ : Shape).Reduces [0] ⟨1, ![b]⟩)
    (hφ : FKind.Formats .f32) (hacc : acc = FKind.maximumf.neutral .f32 hφ) (d : Fin b) :
    multiReduction .maximumf [0] ⟨1, ![b]⟩ src acc h hφ hacc (ix1 d)
      = (Finset.univ : Finset (Fin a)).fold max (Ideal.ofBits .f32 acc) (fun n => src (ix2 n d)) := by
  rw [Ideal.multiReduction_maximumf_single]
  exact congrArg (fun f => Finset.fold max (Ideal.ofBits .f32 acc) f Finset.univ)
    (funext fun k => congrArg src (lift_col h d k))

/-- The sum down column `d`. -/
theorem colSum_apply (src : FVec Ideal ⟨2, ![a, b]⟩ .f32) (acc : BitVec 32) (h : (⟨2, ![a, b]⟩ : Shape).Reduces [0] ⟨1, ![b]⟩)
    (hφ : FKind.Formats .f32) (hacc : acc = FKind.add.neutral .f32 hφ) (d : Fin b) :
    multiReduction .add [0] ⟨1, ![b]⟩ src acc h hφ hacc (ix1 d) = ∑ n : Fin a, src (ix2 n d) := by
  rw [Ideal.multiReduction_add_single]
  exact Finset.sum_congr rfl fun k _ => congrArg src (lift_col h d k)

/-- A vector `[a]` written as a column `[a, 1]` reads, at `(i, u)`, the vector at `i`. -/
theorem shapeCast_a_a1_apply {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The exponential of a vector, read at an entry. -/
theorem exp_apply {s : Shape} (x : FVec Ideal s .f32) (i : s.Idx) : exp x i = Ideal.exp (x i) := rfl

/-- The logistic function of a vector, read at an entry. -/
theorem logistic_apply {s : Shape} (x : FVec Ideal s .f32) (i : s.Idx) : logistic x i = Ideal.logistic (x i) := rfl

end Cert.AttnPool.Layout

end
-- ==== Proof.LibColumn.lean ====
/-
  Two small layout facts read at an entry, generic in the extents: a column `[m, 1]` broadcast across `n` columns, and the
  one entry of a `1 × 1` matrix written as the literal position `(0, 0)`.
-/
import Idealize.ShloMosaic.Lib.ValueIdx
import Idealize.ShloMosaic.Lib.Pipeline.Value

noncomputable section

namespace LibColumn

open Idealize.ShloMosaic Idealize.ShloMosaic.ValueIdx

/-- A column `[M, 1]` broadcast across `N` columns, read at `(p, q)`, is the column at `(p, 0)`. -/
theorem broadcastTo_col_apply {α : Type} {M N : Nat} (v : (⟨2, ![M, 1]⟩ : Shape).Idx → α)
    (h : (⟨2, ![M, 1]⟩ : Shape).Broadcasts ⟨2, ![M, N]⟩) (p : Fin M) (q : Fin N) :
    broadcastTo ⟨2, ![M, N]⟩ v h (ix2 p q) = v (ix2 p 0) := by
  refine broadcastTo_apply v h (ix2 p q) (ix2 p 0) fun a => ?_
  match a with
  | ⟨0, _⟩ =>
    show p.val = if M = 1 then 0 else p.val
    split
    · have := p.isLt; omega
    · rfl
  | ⟨1, _⟩ => exact (if_pos rfl).symm

/-- The entry of a `1 × 1` matrix extracted at the literal position `[0, 0]` is its entry `(0, 0)`. -/
theorem extractAt_zero_zero {α : Type} (x : (⟨2, ![1, 1]⟩ : Shape).Idx → α)
    (h : ∀ a, (![0, 0] : Fin 2 → Nat) a < (⟨2, ![1, 1]⟩ : Shape).size a) :
    extractAt ![0, 0] x h = x (ix2 0 0) := by
  unfold extractAt
  exact congrArg x (funext fun a => Fin.ext (by match a with | ⟨0, _⟩ => rfl | ⟨1, _⟩ => rfl))

end LibColumn

end
-- ==== Proof.Spec.lean ====
/-
  Attention pooling of one batch of tokens, as plain mathematics over the extended reals.

  For a batch `X : [1024, 256]` and weights `W1, W2 : [256, 256]`, `W4 : [256]`:
    q = σ(X · W1),  k = σ(X · W2)                 (σ the logistic function, entry by entry)
    A = softmax over each row of (q · kᵀ) / 16
    C = A · X                                      (each token's attended context)
    a = softmax over the tokens of (C · W4)
    pooled d = ∑ₙ X n d · a n.
  A softmax subtracts the row's maximum (taken from −∞) before exponentiating and divides by the sum of the
  exponentials.  Nothing here asks the entries to be finite: every step is stated with the extended reals' own
  operations, and the two programs are compared step by step, never through an algebraic law that could fail at ±∞.
  The one arithmetic fact used is that dividing by √256 is multiplying by 1/16, on every extended real.
-/
import Idealize.ShloMosaic.PureOps.Ideal
import Idealize.ShloMosaic.PureOps.Ideal.Laws
import Idealize.ShloMosaic.Lib.ValueIdx

noncomputable section

open scoped BigOperators

namespace Cert.AttnPool

open Idealize.ShloMosaic Idealize.ShloMosaic.ValueIdx

/-- The float word of −∞ read as an extended real: every maximum below starts from it. -/
abbrev negInf : EReal := Ideal.ofBits .f32 0xFF800000#32

/-- The float word of 1/16 read as an extended real: the logits' scale. -/
abbrev sixteenth : EReal := Ideal.ofBits .f32 0x3D800000#32

/-- The maximum of finitely many extended reals, folded from −∞ (and once more compared with −∞, as both programs do). -/
def vmax {n : ℕ} (f : Fin n → EReal) : EReal :=
  max negInf ((Finset.univ : Finset (Fin n)).fold max negInf f)

/-- Softmax of a finite family: `exp (f i − max f) / ∑ⱼ exp (f j − max f)`. -/
def softmax {n : ℕ} (f : Fin n → EReal) (i : Fin n) : EReal :=
  Ideal.div (Ideal.exp (f i - vmax f)) (∑ j : Fin n, Ideal.exp (f j - vmax f))

/-- A projection followed by the logistic function: `σ(∑_d X n d · W d p)`. -/
def proj (X : Fin 1024 → Fin 256 → EReal) (W : Fin 256 → Fin 256 → EReal) (n : Fin 1024) (p : Fin 256) : EReal :=
  Ideal.logistic (∑ d : Fin 256, X n d * W d p)

/-- The scaled attention logits: `(∑_p q n p · k m p) · 1/16`. -/
def logits (X : Fin 1024 → Fin 256 → EReal) (W1 W2 : Fin 256 → Fin 256 → EReal) (n m : Fin 1024) : EReal :=
  (∑ p : Fin 256, proj X W1 n p * proj X W2 m p) * sixteenth

/-- Each token's attended context: `∑_m softmax(logits n ·) m · X m d`. -/
def ctx (X : Fin 1024 → Fin 256 → EReal) (W1 W2 : Fin 256 → Fin 256 → EReal) (n : Fin 1024) (d : Fin 256) : EReal :=
  ∑ m : Fin 1024, softmax (logits X W1 W2 n) m * X m d

/-- Each token's pooling score: `∑_d ctx n d · W4 d`. -/
def score (X : Fin 1024 → Fin 256 → EReal) (W1 W2 : Fin 256 → Fin 256 → EReal) (W4 : Fin 256 → EReal) (n : Fin 1024) : EReal :=
  ∑ d : Fin 256, ctx X W1 W2 n d * W4 d

/-- The pooled embedding: `∑ₙ X n d · softmax(score) n`. -/
def pool (X : Fin 1024 → Fin 256 → EReal) (W1 W2 : Fin 256 → Fin 256 → EReal) (W4 : Fin 256 → EReal) (d : Fin 256) : EReal :=
  ∑ n : Fin 1024, X n d * softmax (score X W1 W2 W4) n

/-- Batch `b` of the token array as a matrix. -/
def batch (x : (⟨3, ![64, 1024, 256]⟩ : Shape).Idx → EReal) (b : Fin 64) : Fin 1024 → Fin 256 → EReal :=
  fun n d => x (ix3 b n d)

/-- A rank-2 array as a matrix. -/
def mat {a b : ℕ} (w : (⟨2, ![a, b]⟩ : Shape).Idx → EReal) : Fin a → Fin b → EReal := fun i j => w (ix2 i j)

/-- A one-column array as a vector. -/
def col {a : ℕ} (w : (⟨2, ![a, 1]⟩ : Shape).Idx → EReal) : Fin a → EReal := fun i => w (ix2 i 0)

/-- THE RESULT, as one function of the four argument arrays: entry `(b, d)` is batch `b`'s pooled embedding at `d`. -/
def pooled (x : (⟨3, ![64, 1024, 256]⟩ : Shape).Idx → EReal) (w1 w2 : (⟨2, ![256, 256]⟩ : Shape).Idx → EReal)
    (w4 : (⟨2, ![256, 1]⟩ : Shape).Idx → EReal) : (⟨2, ![64, 256]⟩ : Shape).Idx → EReal :=
  fun i => pool (batch x (i 0)) (mat w1) (mat w2) (col w4) (i 1)

/-! ## The one arithmetic fact: dividing by √256 is multiplying by 1/16 -/

/-- The word `0x43800000` is 256. -/
theorem ofBits_256 : Ideal.ofBits .f32 0x43800000#32 = ((256 : ℝ) : EReal) := by
  simp [Ideal.ofBits, Ideal.ieee, -EReal.coe_mul]; norm_num

/-- The word `0x3D800000` is 1/16. -/
theorem ofBits_sixteenth : Ideal.ofBits .f32 0x3D800000#32 = ((1 / 16 : ℝ) : EReal) := by
  simp [Ideal.ofBits, Ideal.ieee, -EReal.coe_mul]; norm_num

/-- The word `0x3F800000` is 1. -/
theorem ofBits_one : Ideal.ofBits .f32 0x3F800000#32 = 1 := by
  simp [Ideal.ofBits, Ideal.ieee, -EReal.coe_mul]; norm_num

/-- The zero word is 0, so a sum started from it is the sum. -/
theorem zero_word_add (s : EReal) : Ideal.ofBits .f32 0x00000000#32 + s = s := by
  rw [Ideal.ofBits_zero_f32, zero_add]

/-- On every extended real, the quotient by `√256` is the product with `1/16`: `√256 = 16` exactly, and a quotient by a
    nonzero real is the product with its reciprocal. -/
theorem div_sqrt_256 (s : EReal) :
    Ideal.div s (Ideal.sqrt (Ideal.ofBits .f32 0x43800000#32)) = s * Ideal.ofBits .f32 0x3D800000#32 := by
  have h16 : Real.sqrt 256 = 16 := by
    rw [show (256 : ℝ) = 16 ^ 2 by norm_num]; exact Real.sqrt_sq (by norm_num)
  rw [ofBits_256, Ideal.sqrt_coe, if_neg (by norm_num), h16, Ideal.div_coe (by norm_num), ofBits_sixteenth]

end Cert.AttnPool

end
-- ==== Proof.KernelBody.lean ====
/-
  The kernel's body on one batch, read at an entry over the extended reals.

  The body's arithmetic is a chain of rank-2 stages: two logistic projections of the tokens, their product with the
  transpose scaled by 1/16, a softmax along each row, the product with the tokens, the product with the one-column
  weight, a softmax down that column, and the weighted sum of the tokens down each column.  Each stage is named here as a
  function of its operands exactly as the body spells it, and read at an entry; the body's two payloads are then those
  stages composed, so the stored block at `(0, 0, d)` is the specification's pooled embedding of the block at `d`.
  A change of float format is the identity over the extended reals, so the casts to the narrow format disappear when
  read at an entry.
-/
import proofs.«167748_j395136991510_2_alg».proof.Proof.Gen.KernelIdeal.Skeleton
import proofs.«167748_j395136991510_2_alg».proof.Proof.KernelDots
import proofs.«167748_j395136991510_2_alg».proof.Proof.Layout
import proofs.«167748_j395136991510_2_alg».proof.Proof.LibColumn
import proofs.«167748_j395136991510_2_alg».proof.Proof.Spec
import Idealize.ShloMosaic.Lib.ValueLayout

noncomputable section

open scoped BigOperators

namespace Cert.KernelIdeal.Body

open Idealize.ShloMosaic Idealize.ShloMosaic.ValueIdx Cert.KernelIdeal Cert.KernelIdeal.Facts₀
open Cert.AttnPool

/-! ## The stages, as the body spells them -/

/-- A logistic projection: `σ(X · W)`. -/
def sig (X : FVec Ideal S1024x256 .f32) (W : FVec Ideal S256x256 .f32) : FVec Ideal S1024x256 .f32 :=
  logistic (matmul dot_S1024x256_S256x256_S1024x256_1_0_0_1_n_n none (truncf .bf16 X bitsLt_bf16_f32) (truncf .bf16 W bitsLt_bf16_f32)
    (constant S1024x256 .f32 0x00000000#32))

theorem sig_apply (X : FVec Ideal S1024x256 .f32) (W : FVec Ideal S256x256 .f32) (n : Fin 1024) (p : Fin 256) :
    sig X W (ix2 n p) = Ideal.logistic (∑ d : Fin 256, X (ix2 n d) * W (ix2 d p)) := by
  unfold sig
  refine (Layout.logistic_apply _ _).trans ?_
  exact congrArg Ideal.logistic (Dots.proj_apply _ _ n p)

/-- The scaled logits: `(Q · Kᵀ) · 1/16`. -/
def scaled (Q K : FVec Ideal S1024x256 .f32) : FVec Ideal S1024x1024 .f32 :=
  mulf (matmul dot_S1024x256_S1024x256_S1024x1024_1_1_0_0_n_n none (truncf .bf16 Q bitsLt_bf16_f32) (truncf .bf16 K bitsLt_bf16_f32)
    (constant S1024x1024 .f32 0x00000000#32)) (broadcast S1024x1024 (Scalar.ofBits .f32 0x3D800000#32))

theorem scaled_apply (Q K : FVec Ideal S1024x256 .f32) (n m : Fin 1024) :
    scaled Q K (ix2 n m) = (∑ p : Fin 256, Q (ix2 n p) * K (ix2 m p)) * sixteenth := by
  unfold scaled
  refine (mulf_apply _ _ _).trans ?_
  exact congrArg (· * sixteenth) (Dots.qkT_apply _ _ n m)

/-- Each row's maximum, spread back across the row. -/
def rowShift (L : FVec Ideal S1024x1024 .f32) : FVec Ideal S1024x1024 .f32 :=
  broadcastTo S1024x1024 (shapeCast S1024x1 (maximumf (broadcast S1024 (Scalar.ofBits .f32 0xFF800000#32))
    (multiReduction .maximumf [1] S1024 L 0xFF800000#32 reduces_S1024x1024_S1024 (.inl rfl) rfl)) shapeCasts_S1024_S1024x1)
    broadcasts_S1024x1_S1024x1024

theorem rowShift_apply (L : FVec Ideal S1024x1024 .f32) (n m : Fin 1024) :
    rowShift L (ix2 n m) = vmax (fun j : Fin 1024 => L (ix2 n j)) := by
  unfold rowShift vmax
  refine (LibColumn.broadcastTo_col_apply _ _ n m).trans ?_
  refine (Layout.shapeCast_a_a1_apply _ _ n 0).trans ?_
  refine (maximumf_apply _ _ (ix1 n)).trans ?_
  exact congrArg (max (Ideal.ofBits .f32 0xFF800000#32)) (Layout.rowMax_apply L _ _ _ _ n)

/-- The exponentials of a row's entries less the row's maximum. -/
def rowExp (L : FVec Ideal S1024x1024 .f32) : FVec Ideal S1024x1024 .f32 := exp (subf L (rowShift L))

theorem rowExp_apply (L : FVec Ideal S1024x1024 .f32) (n m : Fin 1024) :
    rowExp L (ix2 n m) = Ideal.exp (L (ix2 n m) - vmax (fun j : Fin 1024 => L (ix2 n j))) := by
  unfold rowExp
  refine (Layout.exp_apply _ _).trans ?_
  exact congrArg Ideal.exp ((subf_apply _ _ _).trans (congrArg (L (ix2 n m) - ·) (rowShift_apply L n m)))

/-- Softmax along each row. -/
def rowSoftmax (L : FVec Ideal S1024x1024 .f32) : FVec Ideal S1024x1024 .f32 :=
  divf (rowExp L) (broadcastTo S1024x1024 (shapeCast S1024x1
    (multiReduction .add [1] S1024 (rowExp L) 0x00000000#32 reduces_S1024x1024_S1024 (.inl rfl) rfl) shapeCasts_S1024_S1024x1)
    broadcasts_S1024x1_S1024x1024)

theorem rowSoftmax_apply (L : FVec Ideal S1024x1024 .f32) (n m : Fin 1024) :
    rowSoftmax L (ix2 n m) = softmax (fun j : Fin 1024 => L (ix2 n j)) m := by
  unfold rowSoftmax softmax
  refine (divf_apply _ _ (ix2 n m)).trans ?_
  exact congrArg₂ Ideal.div (rowExp_apply L n m)
    ((LibColumn.broadcastTo_col_apply _ _ n m).trans ((Layout.shapeCast_a_a1_apply _ _ n 0).trans
      ((Layout.rowSum_apply (rowExp L) _ _ _ _ n).trans (Finset.sum_congr rfl fun j _ => rowExp_apply L n j))))

/-- The attended contexts: `A · X`. -/
def attend (A : FVec Ideal S1024x1024 .f32) (X : FVec Ideal S1024x256 .f32) : FVec Ideal S1024x256 .f32 :=
  matmul dot_S1024x1024_S1024x256_S1024x256_1_0_0_1_n_n none (truncf .bf16 A bitsLt_bf16_f32) (truncf .bf16 X bitsLt_bf16_f32)
    (constant S1024x256 .f32 0x00000000#32)

theorem attend_apply (A : FVec Ideal S1024x1024 .f32) (X : FVec Ideal S1024x256 .f32) (n : Fin 1024) (d : Fin 256) :
    attend A X (ix2 n d) = ∑ m : Fin 1024, A (ix2 n m) * X (ix2 m d) := by
  unfold attend
  exact Dots.attend_apply _ _ n d

/-- The pooling scores: `C · W4`. -/
def scores (C : FVec Ideal S1024x256 .f32) (W4 : FVec Ideal S256x1 .f32) : FVec Ideal S1024x1 .f32 :=
  matmul dot_S1024x256_S256x1_S1024x1_1_0_0_1_n_n none (truncf .bf16 C bitsLt_bf16_f32) (truncf .bf16 W4 bitsLt_bf16_f32)
    (constant S1024x1 .f32 0x00000000#32)

theorem scores_apply (C : FVec Ideal S1024x256 .f32) (W4 : FVec Ideal S256x1 .f32) (n : Fin 1024) :
    scores C W4 (ix2 n 0) = ∑ d : Fin 256, C (ix2 n d) * W4 (ix2 d 0) := by
  unfold scores
  exact Dots.score_apply _ _ n 0

/-- The column's maximum, spread back down the column. -/
def colShift (S : FVec Ideal S1024x1 .f32) : FVec Ideal S1024x1 .f32 :=
  broadcastTo S1024x1 (shapeCast S1x1 (maximumf (broadcast S1 (Scalar.ofBits .f32 0xFF800000#32))
    (multiReduction .maximumf [0] S1 S 0xFF800000#32 reduces_S1024x1_S1 (.inl rfl) rfl)) shapeCasts_S1_S1x1) broadcasts_S1x1_S1024x1

theorem colShift_apply (S : FVec Ideal S1024x1 .f32) (n : Fin 1024) :
    colShift S (ix2 n 0) = vmax (fun j : Fin 1024 => S (ix2 j 0)) := by
  unfold colShift vmax
  refine (broadcastTo_1b_ab_apply _ _ n 0).trans ?_
  refine (shapeCast_a_1a_apply _ _ 0 0).trans ?_
  refine (maximumf_apply _ _ (ix1 0)).trans ?_
  exact congrArg (max (Ideal.ofBits .f32 0xFF800000#32)) (Layout.colMax_apply S _ _ _ _ 0)

/-! ## The body's payloads -/

/-- A loaded block `[1, 1024, 256]` as a matrix. -/
def blockMat (x0 : Vec Ideal S1x1024x256 .f32) : Fin 1024 → Fin 256 → EReal := fun n d => x0 (ix3 0 n d)

/-- The block without its unit axis, read at `(n, d)`. -/
theorem pay2_apply (x0 : Vec Ideal S1x1024x256 .f32) (n : Fin 1024) (d : Fin 256) :
    Gen.k0_pay2 x0 (ix2 n d) = x0 (ix3 0 n d) := by
  unfold Gen.k0_pay2
  exact shapeCast_1ab_ab_apply _ _ n d

/-- The stored value, from the tokens `v1` and the centred scores `v38`: at `(0, 0, d)` it is the sum over the tokens
    of the token's entry times the softmax weight `exp v38 n / ∑ⱼ exp v38 j`. -/
theorem pay1_apply (v1 : FVec Ideal S1024x256 .f32) (v38 : FVec Ideal S1024x1 .f32) (d : Fin 256) :
    Gen.k0_pay1 v1 v38 (ix3 0 0 d)
      = ∑ n : Fin 1024, v1 (ix2 n d) * Ideal.div (Ideal.exp (v38 (ix2 n 0))) (∑ j : Fin 1024, Ideal.exp (v38 (ix2 j 0))) := by
  unfold Gen.k0_pay1
  refine (shapeCast_ab_1ab_apply _ _ 0 0 d).trans ?_
  refine (shapeCast_a_1a_apply _ _ 0 d).trans ?_
  refine (Layout.colSum_apply _ _ _ _ _ d).trans ?_
  refine Finset.sum_congr rfl fun n _ => ?_
  refine (mulf_apply _ _ _).trans ?_
  refine congrArg (v1 (ix2 n d) * ·) ?_
  refine (LibColumn.broadcastTo_col_apply _ _ n d).trans ?_
  refine (divf_apply _ _ _).trans ?_
  refine congrArg₂ Ideal.div (Layout.exp_apply _ _) ?_
  refine (broadcastTo_1b_ab_apply _ _ n 0).trans ?_
  refine (shapeCast_a_1a_apply _ _ 0 0).trans ?_
  refine (Layout.colSum_apply _ _ _ _ _ 0).trans ?_
  exact Finset.sum_congr rfl fun j _ => Layout.exp_apply _ _

/-- The centred scores are the stages composed: the body's lines, grouped. -/
theorem pay3_eq (x0 : Vec Ideal S1x1024x256 .f32) (x1 x2 : Vec Ideal S256x256 .f32) (x3 : Vec Ideal S256x1 .f32) :
    Gen.k0_pay3 x0 x1 x2 x3
      = subf (scores (attend (rowSoftmax (scaled (sig (Gen.k0_pay2 x0) x1) (sig (Gen.k0_pay2 x0) x2))) (Gen.k0_pay2 x0)) x3)
          (colShift (scores (attend (rowSoftmax (scaled (sig (Gen.k0_pay2 x0) x1) (sig (Gen.k0_pay2 x0) x2))) (Gen.k0_pay2 x0)) x3)) := rfl

/-- The scores of the block's tokens are the specification's. -/
theorem scores_eq (x0 : Vec Ideal S1x1024x256 .f32) (x1 x2 : Vec Ideal S256x256 .f32) (x3 : Vec Ideal S256x1 .f32) (j : Fin 1024) :
    scores (attend (rowSoftmax (scaled (sig (Gen.k0_pay2 x0) x1) (sig (Gen.k0_pay2 x0) x2))) (Gen.k0_pay2 x0)) x3 (ix2 j 0)
      = score (blockMat x0) (mat x1) (mat x2) (col x3) j := by
  rw [scores_apply]
  simp only [attend_apply, rowSoftmax_apply, scaled_apply, sig_apply, pay2_apply]
  rfl

/-- The centred scores at token `n`: the score less the scores' maximum. -/
theorem pay3_apply (x0 : Vec Ideal S1x1024x256 .f32) (x1 x2 : Vec Ideal S256x256 .f32) (x3 : Vec Ideal S256x1 .f32) (n : Fin 1024) :
    Gen.k0_pay3 x0 x1 x2 x3 (ix2 n 0)
      = score (blockMat x0) (mat x1) (mat x2) (col x3) n - vmax (score (blockMat x0) (mat x1) (mat x2) (col x3)) := by
  rw [pay3_eq]
  refine (subf_apply _ _ _).trans ?_
  rw [colShift_apply, scores_eq]
  simp only [scores_eq]

/-- THE STORED BLOCK at `(0, 0, d)` is the pooled embedding of the loaded block at `d`. -/
theorem pay_eq (x0 : Vec Ideal S1x1024x256 .f32) (x1 x2 : Vec Ideal S256x256 .f32) (x3 : Vec Ideal S256x1 .f32) (d : Fin 256) :
    Gen.k0_pay1 (Gen.k0_pay2 x0) (Gen.k0_pay3 x0 x1 x2 x3) (ix3 0 0 d)
      = pool (blockMat x0) (mat x1) (mat x2) (col x3) d := by
  rw [pay1_apply]
  simp only [pay2_apply, pay3_apply]
  rfl

end Cert.KernelIdeal.Body

end
-- ==== Proof.KernelArray.lean ====
/-
  From the kernel's blocks to its result array, over the extended reals.

  Grid point `t` handles batch `t`: it reads block `(t, 0, 0)` of the tokens and the whole of each weight, and writes block
  `(t, 0, 0)` of the `[64, 1, 256]` output.  What it writes is the pooled embedding of its batch, so the 64 blocks tile
  the output array with the specification's function; the host's reshape to `[64, 256]` then drops the unit axis.
-/
import proofs.«167748_j395136991510_2_alg».proof.Proof.Gen.KernelIdeal.Frame
import proofs.«167748_j395136991510_2_alg».proof.Proof.KernelBody
import Idealize.ShloMosaic.Lib.Pipeline.Value
import Idealize.ShloMosaic.Lib.StableHlo.Run

set_option maxRecDepth 16384

noncomputable section

open scoped BigOperators

namespace Cert.KernelIdeal.Pooled

open Idealize.ShloMosaic Idealize.ShloMosaic.TcCoe Idealize.ShloMosaic.ValueIdx Idealize.SL.Sem
open Cert.KernelIdeal Cert.KernelIdeal.Gen Cert.AttnPool
open Idealize.ShloMosaic.Pipeline (Dat)

variable (m : (ℓ : Loc nD τ sig) → Buf (Elt Ideal) ℓ) (ρ : Dev nD → PrngReg)

/-- The `[64, 1, 256]` output as one function of the four arguments: entry `(b, 0, d)` is batch `b`'s pooled embedding at `d`. -/
def pooled3 (x : S64x1024x256.Idx → EReal) (w1 w2 : S256x256.Idx → EReal) (w4 : S256x1.Idx → EReal) : S64x1x256.Idx → EReal :=
  fun i => pool (batch x (i 0)) (mat w1) (mat w2) (col w4) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the token window moves with the output window along the batch axis,
    every other block index is 0, and the batch index stays below 64. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (2 : Fin 3) = 0 ∧ win0_4.index t (0 : Fin 3) < 64 :=
  (by decide +kernel : ∀ t : Fin grid0.N, _)

/-- Every batch is some point's. -/
theorem idx_onto : ∀ q : Fin 64, ∃ t : Fin cfg0.N, win0_4.index t = ![q.val, 0, 0] :=
  (by decide +kernel : ∀ q : Fin 64, ∃ t : Fin grid0.N, win0_4.index t = ![q.val, 0, 0])

/-- One point's stored block, over variables: if the loaded token block is batch `b` of `x` and the loaded weights are
    the weight arrays, the stored block at `y` is batch `b`'s pooled embedding at `y`'s last coordinate. -/
theorem block_eq (x : S64x1024x256.Idx → EReal) (w1 w2 : S256x256.Idx → EReal) (w4 : S256x1.Idx → EReal)
    (x0 : Vec Ideal S1x1024x256 .f32) (x1 x2 : Vec Ideal S256x256 .f32) (x3 : Vec Ideal S256x1 .f32) (b : Fin 64)
    (h0 : Body.blockMat x0 = batch x b) (h1 : x1 = w1) (h2 : x2 = w2) (h3 : x3 = w4) (y : S1x1x256.Idx) :
    k0_pay1 (k0_pay2 x0) (k0_pay3 x0 x1 x2 x3) y = pool (batch x b) (mat w1) (mat w2) (col w4) (y 2) := by
  obtain ⟨u, v, d, rfl⟩ : ∃ (u v : Fin 1) (d : Fin 256), y = ix3 u v d := ⟨y 0, y 1, y 2, eq_ix3 y⟩
  obtain rfl : u = 0 := Subsingleton.elim _ _
  obtain rfl : v = 0 := Subsingleton.elim _ _
  subst h1 h2 h3
  rw [Body.pay_eq, h0]

/-- WHAT POINT `t` WRITES BACK is block `t` of the output's function of the arguments as the region finds them. -/
theorem flushed_eq (c : Dev nD) (t : Fin cfg0.N) :
    (dats m 0 c).flushed 4 t = ((cfg0.win 4).blk t).view.read (Elt Ideal)
      (pooled3 (V m c main_arg0) (V m c main_arg1) (V m c main_arg2) (V m c main_arg3)) := by
  show (cfg0.win 4).cut (grid0.coords t) ((dats m 0 c).after 4 t) = _
  rw [after0_4]
  unfold out0_4
  rw [View.canon_unit_zero hz3]
  simp only [View.ld_unit_zero (S := S1x1024x256) hz3, View.ld_unit_zero (S := S256x256) hz2, View.ld_unit_zero (S := S256x1) hz2]
  obtain ⟨e00, e01, e02, e10, e11, e20, e21, e30, e31, e41, e42, e4lt⟩ := idx_facts t
  funext j
  refine (block_eq (V m c main_arg0) (V m c main_arg1) (V m c main_arg2) (V m c main_arg3)
    (iblk m c 0 t) (iblk m c 1 t) (iblk m c 2 t) (iblk m c 3 t) ⟨win0_4.index t (0 : Fin 3), e4lt⟩ ?_ ?_ ?_ ?_ j).trans ?_
  · funext n d
    show V m c main_arg0 (((cfg0.win 0).blk t).view.emb (ix3 0 n d)) = V m c main_arg0 (ix3 ⟨win0_4.index t (0 : Fin 3), e4lt⟩ n d)
    refine congrArg (V m c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 1024 + 1 * n.val = n.val; omega
    | ⟨2, _⟩ => show win0_0.index t (2 : Fin 3) * 256 + 1 * d.val = d.val; omega
  · funext i
    show V m c main_arg1 (((cfg0.win 1).blk t).view.emb i) = V m c main_arg1 i
    refine congrArg (V m c main_arg1) (funext fun a => Fin.ext ?_)
    match a with
    | ⟨0, _⟩ => show win0_1.index t (0 : Fin 2) * 256 + 1 * (i 0).val = (i 0).val; omega
    | ⟨1, _⟩ => show win0_1.index t (1 : Fin 2) * 256 + 1 * (i 1).val = (i 1).val; omega
  · funext i
    show V m c main_arg2 (((cfg0.win 2).blk t).view.emb i) = V m c main_arg2 i
    refine congrArg (V m c main_arg2) (funext fun a => Fin.ext ?_)
    match a with
    | ⟨0, _⟩ => show win0_2.index t (0 : Fin 2) * 256 + 1 * (i 0).val = (i 0).val; omega
    | ⟨1, _⟩ => show win0_2.index t (1 : Fin 2) * 256 + 1 * (i 1).val = (i 1).val; omega
  · funext i
    show V m c main_arg3 (((cfg0.win 3).blk t).view.emb i) = V m c main_arg3 i
    refine congrArg (V m c main_arg3) (funext fun a => Fin.ext ?_)
    match a with
    | ⟨0, _⟩ => show win0_3.index t (0 : Fin 2) * 256 + 1 * (i 0).val = (i 0).val; omega
    | ⟨1, _⟩ => show win0_3.index t (1 : Fin 2) * 1 + 1 * (i 1).val = (i 1).val; omega
  · show pool (batch (V m c main_arg0) ⟨win0_4.index t (0 : Fin 3), e4lt⟩) (mat (V m c main_arg1)) (mat (V m c main_arg2)) (col (V m c main_arg3)) (j 2)
      = pool (batch (V m c main_arg0) ((((cfg0.win 4).blk t).view.emb j) 0)) (mat (V m c main_arg1)) (mat (V m c main_arg2)) (col (V m c main_arg3)) ((((cfg0.win 4).blk t).view.emb j) 2)
    have hj0 : (j 0).val < 1 := (j 0).isLt
    have hb : (((cfg0.win 4).blk t).view.emb j) 0 = ⟨win0_4.index t (0 : Fin 3), e4lt⟩ := Fin.ext (by
      show win0_4.index t (0 : Fin 3) * 1 + 1 * (j 0).val = win0_4.index t (0 : Fin 3); omega)
    have hd : (((cfg0.win 4).blk t).view.emb j) 2 = j 2 := Fin.ext (by
      show win0_4.index t (2 : Fin 3) * 256 + 1 * (j 2).val = (j 2).val; omega)
    exact (congrArg₂ (fun bb dd => pool (batch (V m c main_arg0) bb) (mat (V m c main_arg1)) (mat (V m c main_arg2)) (col (V m c main_arg3)) dd) hb hd).symm

/-- An index of the output is in point `t`'s block iff each coordinate is in the block's range on its axis. -/
theorem mem_blk (t : Fin cfg0.N) (i : S64x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v0).slice (win0_4.rect t)).set ↔ _
  rw [View.set_slice_whole, Rect.mem_set_unit]
  exact Iff.rfl

/-- Every index of the output is in the block of the point of its batch. -/
theorem cover (i : S64x1x256.Idx) : ∃ t : Fin cfg0.N, (cfg0.win 4).flush t = true ∧ i ∈ ((cfg0.win 4).blk t).view.set := by
  have hi0 : (i 0).val < 64 := (i 0).isLt
  have hi1 : (i 1).val < 1 := (i 1).isLt
  have hi2 : (i 2).val < 256 := (i 2).isLt
  obtain ⟨t, ht⟩ := idx_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 256 ≤ (i 2).val ∧ (i 2).val < win0_4.index t (2 : Fin 3) * 256 + 256; omega

/-- THE OUTPUT ARRAY after the region is the output's function of the argument arrays. -/
theorem final (c : Dev nD) :
    (dats m 0 c).arrAt 4 cfg0.N = pooled3 (V m c main_arg0) (V m c main_arg1) (V m c main_arg2) (V m c main_arg3) :=
  (dats m 0 c).arrAt_eq_of_cover 4 _ (fun t _ => flushed_eq m c t) cover

/-- THE RESULT BUFFER after the host's reshape: the `[64, 1, 256]` output without its unit axis, which is the
    specification's function of the argument arrays. -/
theorem tail_eq (c : Dev nD) :
    Pipeline.afterTail₀ cfgs (dats m) 0 (V0 m) [hostOps1] c main_v1
      = pooled (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v1) = _
  after_results
  funext i
  obtain ⟨b, d, rfl⟩ : ∃ (b : Fin 64) (d : Fin 256), i = ix2 b d := ⟨i 0, i 1, eq_ix2 i⟩
  show shapeCast S64x256 (Pipeline.withArrays spec0 c (V0 m c) (fun w => (dats m 0 c).arrAt w cfg0.N) (Proc.devRef .tc main_v0)) _ (ix2 b d) = _
  refine (shapeCast_apply _ _ (ix2 b d) (ix3 b (0 : Fin 1) d) (by
    rw [Shape.rowMajor_val_three, Shape.rowMajor_val_two]
    show (b.val * 1 + 0) * 256 + d.val = b.val * 256 + d.val
    omega)).trans ?_
  have hA := Pipeline.withArrays_arr spec0 launch0.win.arr_inj c (V0 m c) (fun w => (dats m 0 c).arrAt w cfg0.N) 4
  refine (congrFun hA (ix3 b 0 d)).trans ?_
  rw [final]
  rfl

/-- The result buffer is unscoped and is no window's array. -/
theorem result_rest : main_v1 ∈ Pipeline.restRefs sig (cfgs 0).spec :=
  Pipeline.mem_restRefs_of main_v1 rfl (by decide)

/-- THE KERNEL'S RUN: every weakly fair execution terminates with the result buffer at the specification's function of
    the argument arrays, and the argument arrays unchanged. -/
theorem run : θ_run defs (onTc (τ := τ) (main (F := Ideal))) ⟨m, fun _ => 0, ρ⟩ (fun r => ∀ c : Dev nD,
      r.2.mem ((c.tc : Thread nD τ).loc main_v1)
        = pooled (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Pooled

end
-- ==== Proof.RefValue.lean ====
/-
  The reference, read stage by stage at an entry over the extended reals, is the specification.

  Its operations are those of the kernel on every batch at once: the two logistic projections (spelt as
  `1 / (1 + exp (−z))`, which is the logistic function), their batched product with the transpose divided by `√256`
  (the product with `1/16`), the softmax along the last axis, the batched product with the tokens, the product with the
  one-column weight, the softmax along the token axis, and the weighted sum over the tokens.  Each stage's entry at batch
  `b` is the per-batch function of the specification at batch `b`.
-/
import proofs.«167748_j395136991510_2_alg».proof.Proof.Gen.ReferenceIdeal.Read
import proofs.«167748_j395136991510_2_alg».proof.Proof.Spec
import Idealize.ShloMosaic.PureOps.Reduce

noncomputable section

open scoped BigOperators

namespace Cert.ReferenceIdeal.RefValue

open Idealize.ShloMosaic Idealize.ShloMosaic.ValueIdx Cert.ReferenceIdeal Cert.ReferenceIdeal.Facts₀ Cert.ReferenceIdeal.Read
open Cert.AttnPool

/-! ## The generated index maps at coordinates -/

theorem lidx_v0 (b : Fin 64) (n : Fin 1024) (p k : Fin 256) : lidx_main_v0 (ix3 b n p) k = ix3 b n k := funext fun a => Fin.ext (by match a with | ⟨0, _⟩ => rfl | ⟨1, _⟩ => rfl | ⟨2, _⟩ => rfl)
theorem ridx_v0 (b : Fin 64) (n : Fin 1024) (p k : Fin 256) : ridx_main_v0 (ix3 b n p) k = ix2 k p := funext fun a => Fin.ext (by match a with | ⟨0, _⟩ => rfl | ⟨1, _⟩ => rfl)
theorem lidx_v7 (b : Fin 64) (n : Fin 1024) (p k : Fin 256) : lidx_main_v7 (ix3 b n p) k = ix3 b n k := funext fun a => Fin.ext (by match a with | ⟨0, _⟩ => rfl | ⟨1, _⟩ => rfl | ⟨2, _⟩ => rfl)
theorem ridx_v7 (b : Fin 64) (n : Fin 1024) (p k : Fin 256) : ridx_main_v7 (ix3 b n p) k = ix2 k p := funext fun a => Fin.ext (by match a with | ⟨0, _⟩ => rfl | ⟨1, _⟩ => rfl)
theorem lidx_v15 (b : Fin 64) (n m : Fin 1024) (k : Fin 256) : lidx_main_v15 (ix3 b n m) k = ix3 b n k := funext fun a => Fin.ext (by match a with | ⟨0, _⟩ => rfl | ⟨1, _⟩ => rfl | ⟨2, _⟩ => rfl)
theorem ridx_v15 (b : Fin 64) (n m : Fin 1024) (k : Fin 256) : ridx_main_v15 (ix3 b n m) k = ix3 b m k := funext fun a => Fin.ext (by match a with | ⟨0, _⟩ => rfl | ⟨1, _⟩ => rfl | ⟨2, _⟩ => rfl)
theorem idx_v21 (b : Fin 64) (n : Fin 1024) (u : Fin 1) : idx_main_v21 (ix3 b n u) = ix2 b n := funext fun a => Fin.ext (by match a with | ⟨0, _⟩ => rfl | ⟨1, _⟩ => rfl)
theorem idx_v22 (b : Fin 64) (n m : Fin 1024) : idx_main_v22 (ix3 b n m) = ix3 b n 0 := funext fun a => Fin.ext (by match a with | ⟨0, _⟩ => rfl | ⟨1, _⟩ => rfl | ⟨2, _⟩ => rfl)
theorem idx_v25 (b : Fin 64) (n k : Fin 1024) : idx_main_v25 (ix2 b n) k = ix3 b n k := funext fun a => Fin.ext (by match a with | ⟨0, _⟩ => rfl | ⟨1, _⟩ => rfl | ⟨2, _⟩ => rfl)
theorem idx_v26 (b : Fin 64) (n : Fin 1024) (u : Fin 1) : idx_main_v26 (ix3 b n u) = ix2 b n := funext fun a => Fin.ext (by match a with | ⟨0, _⟩ => rfl | ⟨1, _⟩ => rfl)
theorem idx_v27 (b : Fin 64) (n m : Fin 1024) : idx_main_v27 (ix3 b n m) = ix3 b n 0 := funext fun a => Fin.ext (by match a with | ⟨0, _⟩ => rfl | ⟨1, _⟩ => rfl | ⟨2, _⟩ => rfl)
theorem lidx_v29 (b : Fin 64) (n k : Fin 1024) (d : Fin 256) : lidx_main_v29 (ix3 b n d) k = ix3 b n k := funext fun a => Fin.ext (by match a with | ⟨0, _⟩ => rfl | ⟨1, _⟩ => rfl | ⟨2, _⟩ => rfl)
theorem ridx_v29 (b : Fin 64) (n k : Fin 1024) (d : Fin 256) : ridx_main_v29 (ix3 b n d) k = ix3 b k d := funext fun a => Fin.ext (by match a with | ⟨0, _⟩ => rfl | ⟨1, _⟩ => rfl | ⟨2, _⟩ => rfl)
theorem lidx_v30 (b : Fin 64) (n : Fin 1024) (k : Fin 256) : lidx_main_v30 (ix3 b n (0 : Fin 1)) k = ix3 b n k := funext fun a => Fin.ext (by match a with | ⟨0, _⟩ => rfl | ⟨1, _⟩ => rfl | ⟨2, _⟩ => rfl)
theorem ridx_v30 (b : Fin 64) (n : Fin 1024) (k : Fin 256) : ridx_main_v30 (ix3 b n (0 : Fin 1)) k = ix2 k 0 := funext fun a => Fin.ext (by match a with | ⟨0, _⟩ => rfl | ⟨1, _⟩ => rfl)
theorem idx_v34 (b : Fin 64) : idx_main_v34 (ix3 b (0 : Fin 1) (0 : Fin 1)) = ix2 b 0 := funext fun a => Fin.ext (by match a with | ⟨0, _⟩ => rfl | ⟨1, _⟩ => rfl)
theorem idx_v35 (b : Fin 64) (n : Fin 1024) : idx_main_v35 (ix3 b n (0 : Fin 1)) = ix3 b 0 0 := funext fun a => Fin.ext (by match a with | ⟨0, _⟩ => rfl | ⟨1, _⟩ => rfl | ⟨2, _⟩ => rfl)
theorem idx_v38 (b : Fin 64) (k : Fin 1024) : idx_main_v38 (ix2 b (0 : Fin 1)) k = ix3 b k 0 := funext fun a => Fin.ext (by match a with | ⟨0, _⟩ => rfl | ⟨1, _⟩ => rfl | ⟨2, _⟩ => rfl)
theorem idx_v39 (b : Fin 64) : idx_main_v39 (ix3 b (0 : Fin 1) (0 : Fin 1)) = ix2 b 0 := funext fun a => Fin.ext (by match a with | ⟨0, _⟩ => rfl | ⟨1, _⟩ => rfl)
theorem idx_v40 (b : Fin 64) (n : Fin 1024) : idx_main_v40 (ix3 b n (0 : Fin 1)) = ix3 b 0 0 := funext fun a => Fin.ext (by match a with | ⟨0, _⟩ => rfl | ⟨1, _⟩ => rfl | ⟨2, _⟩ => rfl)
theorem idx_v42 (b : Fin 64) (n : Fin 1024) (d : Fin 256) : idx_main_v42 (ix3 b n d) = ix3 b n 0 := funext fun a => Fin.ext (by match a with | ⟨0, _⟩ => rfl | ⟨1, _⟩ => rfl | ⟨2, _⟩ => rfl)
theorem idx_v44 (b : Fin 64) (d : Fin 256) (k : Fin 1024) : idx_main_v44 (ix2 b d) k = ix3 b k d := funext fun a => Fin.ext (by match a with | ⟨0, _⟩ => rfl | ⟨1, _⟩ => rfl | ⟨2, _⟩ => rfl)

/-- Batch `b`, row `n` with the last coordinate `k` put back is `(b, n, k)`. -/
theorem lift_last (h : S64x1024x1024.Reduces [2] S64x1024) (b : Fin 64) (n : Fin 1024) (k : Fin (S64x1024x1024.size 2)) :
    h.lift (ix2 b n) k = ix3 b n (⟨k.val, k.isLt⟩ : Fin 1024) := by
  funext c; apply Fin.ext
  fin_cases c <;> rfl

/-- Batch `b` with the token coordinate `k` put back is `(b, k, 0)`. -/
theorem lift_tokens (h : S64x1024x1.Reduces [1] S64x1) (b : Fin 64) (k : Fin (S64x1024x1.size 1)) :
    h.lift (ix2 b (0 : Fin 1)) k = ix3 b (⟨k.val, k.isLt⟩ : Fin 1024) 0 := by
  funext c; apply Fin.ext
  fin_cases c <;> rfl

/-! ## The stages -/

/-- The queries: `σ(X_b · W1)`. -/
theorem q_eq (x0 : (⟨S64x1024x256, .f32⟩ : BufTy).Contents (Elt Ideal)) (x1 : (⟨S256x256, .f32⟩ : BufTy).Contents (Elt Ideal)) (b : Fin 64) (n : Fin 1024) (p : Fin 256) :
    val_main_v6 (F := Ideal) x0 x1 (ix3 b n p) = proj (batch x0 b) (mat x1) n p := by
  rw [val_main_v6_apply, val_main_v5_apply, val_main_cst_0_apply, val_main_v4_apply, val_main_v3_apply, val_main_cst_apply,
    val_main_v2_apply, val_main_v1_apply, val_main_v0_apply]
  simp only [lidx_v0, ridx_v0]
  unfold proj Ideal.logistic batch mat
  simp only [Ideal.hostDivf_def, Ideal.ofBits_def, Ideal.addf_def, Ideal.hostUnary_exp_def, Ideal.hostNegf_def, Ideal.negf_def, ofBits_one]

/-- The keys: `σ(X_b · W2)`. -/
theorem k_eq (x0 : (⟨S64x1024x256, .f32⟩ : BufTy).Contents (Elt Ideal)) (x2 : (⟨S256x256, .f32⟩ : BufTy).Contents (Elt Ideal)) (b : Fin 64) (n : Fin 1024) (p : Fin 256) :
    val_main_v13 (F := Ideal) x0 x2 (ix3 b n p) = proj (batch x0 b) (mat x2) n p := by
  rw [val_main_v13_apply, val_main_v12_apply, val_main_cst_2_apply, val_main_v11_apply, val_main_v10_apply, val_main_cst_1_apply,
    val_main_v9_apply, val_main_v8_apply, val_main_v7_apply]
  simp only [lidx_v7, ridx_v7]
  unfold proj Ideal.logistic batch mat
  simp only [Ideal.hostDivf_def, Ideal.ofBits_def, Ideal.addf_def, Ideal.hostUnary_exp_def, Ideal.hostNegf_def, Ideal.negf_def, ofBits_one]

/-- The scaled logits: the quotient by `√256` is the product with `1/16`. -/
theorem logits_eq (x0 : (⟨S64x1024x256, .f32⟩ : BufTy).Contents (Elt Ideal)) (x1 x2 : (⟨S256x256, .f32⟩ : BufTy).Contents (Elt Ideal)) (b : Fin 64) (n m : Fin 1024) :
    val_main_v17 (F := Ideal) x0 x1 x2 (ix3 b n m) = logits (batch x0 b) (mat x1) (mat x2) n m := by
  rw [val_main_v17_apply, val_main_v16_apply, val_main_v14_apply, val_main_cst_3_apply, val_main_v15_apply]
  have hs : ∑ k : Fin 256, val_main_v6 (F := Ideal) x0 x1 (lidx_main_v15 (ix3 b n m) k) * val_main_v13 (F := Ideal) x0 x2 (ridx_main_v15 (ix3 b n m) k)
      = ∑ p : Fin 256, proj (batch x0 b) (mat x1) n p * proj (batch x0 b) (mat x2) m p :=
    Finset.sum_congr rfl fun k _ => by rw [lidx_v15, ridx_v15, q_eq, k_eq]
  rw [hs]
  unfold logits
  simp only [Ideal.hostDivf_def, Ideal.hostUnary_sqrt_def, Ideal.ofBits_def, div_sqrt_256]

/-- Each row's maximum, folded from −∞. -/
theorem rowfold_eq (x0 : (⟨S64x1024x256, .f32⟩ : BufTy).Contents (Elt Ideal)) (x1 x2 : (⟨S256x256, .f32⟩ : BufTy).Contents (Elt Ideal)) (b : Fin 64) (n : Fin 1024) :
    val_main_v18 (F := Ideal) x0 x1 x2 (ix2 b n)
      = Finset.fold max negInf (logits (batch x0 b) (mat x1) (mat x2) n) Finset.univ := by
  unfold val_main_v18
  rw [Host.reduce_eq_fold_single FloatOps.maximumf _ _ reducesTo_S64x1024x1024_S64x1024_d2 (by decide) h_S_]
  exact congrArg (fun f => Finset.fold max negInf f Finset.univ)
    (funext fun k => (congrArg (val_main_v17 (F := Ideal) x0 x1 x2) (lift_last _ b n k)).trans (logits_eq x0 x1 x2 b n _))

/-- The row's shift: its maximum, once more compared with −∞. -/
theorem rowmax_eq (x0 : (⟨S64x1024x256, .f32⟩ : BufTy).Contents (Elt Ideal)) (x1 x2 : (⟨S256x256, .f32⟩ : BufTy).Contents (Elt Ideal)) (b : Fin 64) (n : Fin 1024) :
    val_main_v20 (F := Ideal) x0 x1 x2 (ix2 b n) = vmax (logits (batch x0 b) (mat x1) (mat x2) n) := by
  rw [val_main_v20_apply, val_main_v19_apply, val_main_cst_5_apply, rowfold_eq]
  unfold vmax
  simp only [Ideal.maximumf_def, Ideal.ofBits_def]

/-- The exponentials of a row's entries less the row's maximum. -/
theorem exp_eq (x0 : (⟨S64x1024x256, .f32⟩ : BufTy).Contents (Elt Ideal)) (x1 x2 : (⟨S256x256, .f32⟩ : BufTy).Contents (Elt Ideal)) (b : Fin 64) (n m : Fin 1024) :
    val_main_v24 (F := Ideal) x0 x1 x2 (ix3 b n m)
      = Ideal.exp (logits (batch x0 b) (mat x1) (mat x2) n m - vmax (logits (batch x0 b) (mat x1) (mat x2) n)) := by
  rw [val_main_v24_apply, val_main_v23_apply, val_main_v22_apply, val_main_v21_apply]
  simp only [idx_v22, idx_v21, logits_eq, rowmax_eq, Ideal.hostUnary_exp_def, Ideal.subf_def]

/-- The attention weights: softmax along each row. -/
theorem attn_eq (x0 : (⟨S64x1024x256, .f32⟩ : BufTy).Contents (Elt Ideal)) (x1 x2 : (⟨S256x256, .f32⟩ : BufTy).Contents (Elt Ideal)) (b : Fin 64) (n m : Fin 1024) :
    val_main_v28 (F := Ideal) x0 x1 x2 (ix3 b n m) = softmax (logits (batch x0 b) (mat x1) (mat x2) n) m := by
  rw [val_main_v28_apply, val_main_v27_apply, val_main_v26_apply, val_main_v25_apply, val_main_cst_6_apply]
  simp only [idx_v27, idx_v26, idx_v25, exp_eq]
  unfold softmax
  simp only [Ideal.hostDivf_def, Ideal.ofBits_def, zero_word_add]

/-- Each token's attended context. -/
theorem ctx_eq (x0 : (⟨S64x1024x256, .f32⟩ : BufTy).Contents (Elt Ideal)) (x1 x2 : (⟨S256x256, .f32⟩ : BufTy).Contents (Elt Ideal)) (b : Fin 64) (n : Fin 1024) (d : Fin 256) :
    val_main_v29 (F := Ideal) x0 x1 x2 (ix3 b n d) = ctx (batch x0 b) (mat x1) (mat x2) n d := by
  rw [val_main_v29_apply]
  simp only [lidx_v29, ridx_v29, attn_eq]
  rfl

/-- Each token's pooling score. -/
theorem score_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) (b : Fin 64) (n : Fin 1024) :
    val_main_v30 (F := Ideal) x0 x1 x2 x3 (ix3 b n 0) = score (batch x0 b) (mat x1) (mat x2) (col x3) n := by
  rw [val_main_v30_apply]
  simp only [lidx_v30, ridx_v30, ctx_eq]
  rfl

/-- The scores' maximum over the tokens, folded from −∞. -/
theorem colfold_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) (b : Fin 64) :
    val_main_v31 (F := Ideal) x0 x1 x2 x3 (ix2 b 0)
      = Finset.fold max negInf (score (batch x0 b) (mat x1) (mat x2) (col x3)) Finset.univ := by
  unfold val_main_v31
  rw [Host.reduce_eq_fold_single FloatOps.maximumf _ _ reducesTo_S64x1024x1_S64x1_d1 (by decide) h_S_]
  exact congrArg (fun f => Finset.fold max negInf f Finset.univ)
    (funext fun k => (congrArg (val_main_v30 (F := Ideal) x0 x1 x2 x3) (lift_tokens _ b k)).trans (score_eq x0 x1 x2 x3 b _))

theorem colmax_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) (b : Fin 64) :
    val_main_v33 (F := Ideal) x0 x1 x2 x3 (ix2 b 0) = vmax (score (batch x0 b) (mat x1) (mat x2) (col x3)) := by
  rw [val_main_v33_apply, val_main_v32_apply, val_main_cst_8_apply, colfold_eq]
  unfold vmax
  simp only [Ideal.maximumf_def, Ideal.ofBits_def]

/-- The exponentials of the scores less their maximum. -/
theorem exp2_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) (b : Fin 64) (n : Fin 1024) :
    val_main_v37 (F := Ideal) x0 x1 x2 x3 (ix3 b n 0)
      = Ideal.exp (score (batch x0 b) (mat x1) (mat x2) (col x3) n - vmax (score (batch x0 b) (mat x1) (mat x2) (col x3))) := by
  rw [val_main_v37_apply, val_main_v36_apply, val_main_v35_apply, val_main_v34_apply]
  simp only [idx_v35, idx_v34, score_eq, colmax_eq, Ideal.hostUnary_exp_def, Ideal.subf_def]

/-- The pooling weights: softmax over the tokens. -/
theorem weight_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) (b : Fin 64) (n : Fin 1024) :
    val_main_v41 (F := Ideal) x0 x1 x2 x3 (ix3 b n 0) = softmax (score (batch x0 b) (mat x1) (mat x2) (col x3)) n := by
  rw [val_main_v41_apply, val_main_v40_apply, val_main_v39_apply, val_main_v38_apply, val_main_cst_9_apply]
  simp only [idx_v40, idx_v39, idx_v38, exp2_eq]
  unfold softmax
  simp only [Ideal.hostDivf_def, Ideal.ofBits_def, zero_word_add]

/-- The pooled embedding of batch `b` at `d`. -/
theorem out_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) (b : Fin 64) (d : Fin 256) :
    val_main_v44 (F := Ideal) x0 x1 x2 x3 (ix2 b d) = pool (batch x0 b) (mat x1) (mat x2) (col x3) d := by
  rw [val_main_v44_apply, val_main_cst_10_apply]
  simp only [idx_v44, val_main_v43_apply, val_main_v42_apply, idx_v42, weight_eq, Ideal.mulf_def, Ideal.ofBits_def, zero_word_add]
  rfl

/-- THE REFERENCE'S RESULT is the specification's function of the four arguments. -/
theorem result_eq (x0 : (⟨S64x1024x256, .f32⟩ : BufTy).Contents (Elt Ideal)) (x1 x2 : (⟨S256x256, .f32⟩ : BufTy).Contents (Elt Ideal)) (x3 : (⟨S256x1, .f32⟩ : BufTy).Contents (Elt Ideal)) :
    val_main_v44 (F := Ideal) x0 x1 x2 x3 = pooled x0 x1 x2 x3 := by
  funext i
  obtain ⟨b, d, rfl⟩ : ∃ (b : Fin 64) (d : Fin 256), i = ix2 b d := ⟨i 0, i 1, eq_ix2 i⟩
  exact out_eq x0 x1 x2 x3 b d

end Cert.ReferenceIdeal.RefValue

end
-- ==== Proof.lean ====
/-
  The certificate: the attention-pooling kernel against its jnp reference, over the extended reals.

  Both programs compute, for every batch `b` and feature `d`,
      pooled (b, d) = ∑ₙ x (b, n, d) · softmaxₙ (∑_d' ctx (b, n, d') · w4 d'),
  where `ctx` is the attention-weighted average of the batch's tokens under the logits `σ(x·w1) · σ(x·w2)ᵀ / 16`
  (Proof/Spec.lean states it as one function of the four arguments).  The kernel computes one batch per grid point and
  the host reshapes its `[64, 1, 256]` output; the reference computes all batches at once.  The only place where the two
  texts differ arithmetically is the logits' scale — the kernel multiplies by the word of `1/16`, the reference divides
  by `√256` — and these agree on every extended real; the logistic function is spelt by the reference as
  `1 / (1 + exp (−z))`, which is its definition.  Every other step is the same operation on both sides, so no law that
  needs finite entries is used and the precondition is never opened.

  Proof/KernelBody.lean reads the kernel's body at an entry, Proof/KernelArray.lean carries the blocks to the result
  array through the reshape, Proof/RefValue.lean reads the reference stage by stage; here the two runs are posted at the
  same function.  The frames are the generated ones (the reference's is its generated run with the result dropped), and
  the idealization rewrote nothing, so `preserves` is trivial.
-/
import proofs.«167748_j395136991510_2_alg».proof.Defs
import proofs.«167748_j395136991510_2_alg».proof.Proof.Gen.Kernel
import proofs.«167748_j395136991510_2_alg».proof.Proof.Gen.Kernel.Skeleton
import proofs.«167748_j395136991510_2_alg».proof.Proof.Gen.Kernel.Launch
import proofs.«167748_j395136991510_2_alg».proof.Proof.Gen.Kernel.Points
import proofs.«167748_j395136991510_2_alg».proof.Proof.Gen.Kernel.Frame
import proofs.«167748_j395136991510_2_alg».proof.Proof.Gen.KernelIdeal
import proofs.«167748_j395136991510_2_alg».proof.Proof.Gen.KernelIdeal.Skeleton
import proofs.«167748_j395136991510_2_alg».proof.Proof.Gen.KernelIdeal.Launch
import proofs.«167748_j395136991510_2_alg».proof.Proof.Gen.KernelIdeal.Points
import proofs.«167748_j395136991510_2_alg».proof.Proof.Gen.KernelIdeal.Frame
import proofs.«167748_j395136991510_2_alg».proof.Proof.Gen.ReferenceIdeal
import proofs.«167748_j395136991510_2_alg».proof.Proof.Gen.ReferenceIdeal.Run
import proofs.«167748_j395136991510_2_alg».proof.Proof.Gen.ReferenceIdeal.Read
import proofs.«167748_j395136991510_2_alg».proof.Proof.Gen.Pre_finite_inputs
import proofs.«167748_j395136991510_2_alg».proof.Proof.KernelArray
import proofs.«167748_j395136991510_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the pooled embeddings of the arguments: the
    kernel's run posts them through its blocks and the reshape, the reference's through its stages. -/
theorem algebraic : Cert.algebraic_KernelIdeal_ReferenceIdeal := by
  intro m ρ m' ρ' _ hagree
  refine ⟨fun c => Cert.AttnPool.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Pooled.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v44_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
